-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x32 : Shape := ⟨3, ![2, 16384, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2x16384x32 : S_.BroadcastsInDim S2x16384x32 (![] : Fin 0 → Fin S2x16384x32.rank)
  reducesTo_S2x16384x32_S_d0_1_2 : S2x16384x32.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2x16384x32 .f32) (main_arg1 : FVec F S64x64 .f32) (main_arg2 : FVec F S64 .f32) (main_arg3 : FVec F S64x1 .f32) (main_arg4 : FVec F S1 .f32) : IVec S_ 1 :=
  let main_v0 : FVec F S2x16384x32 .f32 := Host.absf main_arg0
  let main_cst : FVec F S_ .f32 := constant S_ .f32 0x7F800000#32
  let main_v1 : FVec F S2x16384x32 .f32 := broadcastInDim S2x16384x32 ![] bcast_S_S2x16384x32 main_cst
  let main_v2 : IVec S2x16384x32 1 := cmpf .olt main_v0 main_v1
  let main_c : IVec S_ 1 := constantI S_ 1 1#1
  let main_v3 : IVec S_ 1 := (fun x v => Host.reduce IntOp.andi x v reducesTo_S2x16384x32_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S2x16384x32 : Shape := ⟨3, ![2, 16384, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S32x64 : Shape := ⟨2, ![32, 64]⟩
abbrev S1x64 : Shape := ⟨2, ![1, 64]⟩
abbrev S1x1 : Shape := ⟨2, ![1, 1]⟩
abbrev S128x128 : Shape := ⟨2, ![128, 128]⟩
abbrev S2x2048x32 : Shape := ⟨3, ![2, 2048, 32]⟩
abbrev S16x128 : Shape := ⟨2, ![16, 128]⟩
abbrev S1x2048x32 : Shape := ⟨3, ![1, 2048, 32]⟩
abbrev S2048x32 : Shape := ⟨2, ![2048, 32]⟩
abbrev S2048x64 : Shape := ⟨2, ![2048, 64]⟩
abbrev S2048 : Shape := ⟨1, ![2048]⟩
abbrev S16384x1 : Shape := ⟨2, ![16384, 1]⟩

abbrev nBuf : Space → Nat
  | .hbm => 12
  | .vmem => 9
  | .smem => 0
  | _ => 0

abbrev bufTy : (tb : Table) → Fin (tcTables nBuf tb) → BufTy
  | .hbm, ⟨0, _⟩ => ⟨S2x16384x32, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S32x64, .f32⟩
  | .hbm, ⟨6, _⟩ => ⟨S32x64, .f32⟩
  | .hbm, ⟨7, _⟩ => ⟨S1x64, .f32⟩
  | .hbm, ⟨8, _⟩ => ⟨S1x64, .f32⟩
  | .hbm, ⟨9, _⟩ => ⟨S1x1, .f32⟩
  | .hbm, ⟨10, _⟩ => ⟨S128x128, .f32⟩
  | .hbm, ⟨11, _⟩ => ⟨S16384x1, .f32⟩
  | .local _ .vmem, ⟨0, _⟩ => ⟨S2x2048x32, .f32⟩
  | .local _ .vmem, ⟨1, _⟩ => ⟨S2x2048x32, .f32⟩
  | .local _ .vmem, ⟨2, _⟩ => ⟨S32x64, .f32⟩
  | .local _ .vmem, ⟨3, _⟩ => ⟨S32x64, .f32⟩
  | .local _ .vmem, ⟨4, _⟩ => ⟨S1x64, .f32⟩
  | .local _ .vmem, ⟨5, _⟩ => ⟨S1x64, .f32⟩
  | .local _ .vmem, ⟨6, _⟩ => ⟨S1x1, .f32⟩
  | .local _ .vmem, ⟨7, _⟩ => ⟨S16x128, .f32⟩
  | .local _ .vmem, ⟨8, _⟩ => ⟨S16x128, .f32⟩
  | _, _ => ⟨S2x16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S64x64_S32x64_0_0 : S64x64.Slices ![0, 0] S32x64
  slices_S64x64_S32x64_32_0 : S64x64.Slices ![32, 0] S32x64
  shapeCasts_S64_S1x64 : S64.ShapeCasts S1x64
  shapeCasts_S64x1_S1x64 : S64x1.ShapeCasts S1x64
  shapeCasts_S1_S1x1 : S1.ShapeCasts S1x1
  inb_S2x2048x32_S1x2048x32_0_0_0 : ∀ a, (![0, 0, 0] : Fin 3 → Nat) a + S1x2048x32.size a ≤ S2x2048x32.size a
  h_S1x2048x32 : 0 < S1x2048x32.numel
  shapeCasts_S1x2048x32_S2048x32 : S1x2048x32.ShapeCasts S2048x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S2x2048x32_S1x2048x32_1_0_0 : ∀ a, (![1, 0, 0] : Fin 3 → Nat) a + S1x2048x32.size a ≤ S2x2048x32.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S2048_S16x128 : S2048.ShapeCasts S16x128
  inb_S16x128_S16x128_0_0 : ∀ a, (![0, 0] : Fin 2 → Nat) a + S16x128.size a ≤ S16x128.size a
  h_S16x128 : 0 < S16x128.numel
  shapeCasts_S128x128_S16384x1 : S128x128.ShapeCasts S16384x1
  dot_S2048x32_S32x64_S2048x64_1_0_0_1_n_n_wf : DotDims.WF S2048x32 S32x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x32.size a ≤ S2x16384x32.size a
  hwx0_0 : ∀ i : grid0.Coords, EltTy.bits .f32 = 32 ∨ (Rect.block (s := S2x16384x32) S2x2048x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S128x128.size a
  hwx0_6 : ∀ i : grid0.Coords, EltTy.bits .f32 = 32 ∨ (Rect.block (s := S128x128) S16x128.size (cc0_transform_6 i) (hinb0_6 i)).WholeWords (EltTy.packing .f32)

variable [Facts₀]

def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf

abbrev win0_0 : Pipeline.Window sig grid0 :=
  Pipeline.Window.ofSpec (Memref.whole main_arg0) S2x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S16x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x16384x32 : Shape := ⟨3, ![2, 16384, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x16384x32 : Shape := ⟨3, ![1, 16384, 32]⟩
abbrev S16384x32 : Shape := ⟨2, ![16384, 32]⟩
abbrev S16384x64 : Shape := ⟨2, ![16384, 64]⟩
abbrev S1x64 : Shape := ⟨2, ![1, 64]⟩
abbrev S_ : Shape := ⟨0, ![]⟩
abbrev S16384x1 : Shape := ⟨2, ![16384, 1]⟩
abbrev S1x1 : Shape := ⟨2, ![1, 1]⟩

abbrev nBuf : Space → Nat
  | .hbm => 21
  | .vmem => 0
  | .smem => 0
  | _ => 0

abbrev bufTy : (tb : Table) → Fin (tcTables nBuf tb) → BufTy
  | .hbm, ⟨0, _⟩ => ⟨S2x16384x32, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1x16384x32, .f32⟩
  | .hbm, ⟨6, _⟩ => ⟨S16384x32, .f32⟩
  | .hbm, ⟨7, _⟩ => ⟨S1x16384x32, .f32⟩
  | .hbm, ⟨8, _⟩ => ⟨S16384x32, .f32⟩
  | .hbm, ⟨9, _⟩ => ⟨S16384x64, .f32⟩
  | .hbm, ⟨10, _⟩ => ⟨S16384x64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S16384x1, .f32⟩
  | .hbm, ⟨18, _⟩ => ⟨S1x1, .f32⟩
  | .hbm, ⟨19, _⟩ => ⟨S16384x1, .f32⟩
  | .hbm, ⟨20, _⟩ => ⟨S16384x1, .f32⟩
  | _, _ => ⟨S2x16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  slices_S2x16384x32_S1x16384x32_0_0_0 : S2x16384x32.Slices ![0, 0, 0] S1x16384x32
  shapeCasts_S1x16384x32_S16384x32 : S1x16384x32.ShapeCasts S16384x32
  slices_S2x16384x32_S1x16384x32_1_0_0 : S2x16384x32.Slices ![1, 0, 0] S1x16384x32
  concatenates_S16384x32_S16384x32_S16384x64_d1 : Shape.Concatenates [S16384x32, S16384x32] S16384x64 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x64_S64x64_S16384x64_1_0_0_1_n_n_wf : DotDims.WF S16384x64 S64x64 S16384x64 [1] [0] [0] [1] [] []
  dot_S16384x64_S64x1_S16384x1_1_0_0_1_n_n_wf : DotDims.WF S16384x64 S64x1 S16384x1 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Payload.lean ====
/-
  What the kernel body stores, read at one entry.

  At a grid point the body holds a slab of 2048 batch rows of both embeddings (`v0`, `v5`: the
  slab's two leading slices, each 1 × 2048 × 32), the two 32 × 64 halves of `W0` (`v2`, `v7`),
  the bias row `b0` and the weights `W1` laid out as rows of 64 (`v11`, `v17`), and the scalar
  `b1` (`v22`).  It forms the two half products, adds them and the bias row, rectifies, multiplies
  by the weight row, sums each row's 64 lanes, adds `b1`, and lays the 2048 row scores out as a
  16 × 128 tile in row-major order: entry `(p, q)` of the tile is the score of slab row
  `128·p + q`.  Each operation is read at an index by one small lemma; none uses anything but the
  definitions of the operations on extended reals.
-/
import proofs.«152916_g12249246728547_cont_main3_525_6_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Score.Ker

open Cert.KernelIdeal Cert.KernelIdeal.Gen
open Idealize.ShloMosaic Idealize.ShloMosaic.ValueIdx

/-- A vector of 2048 entries viewed as a 16 × 128 tile reads, at `(p, q)`, entry `128·p + q`. -/
theorem tile_apply (v : FVec Ideal S2048 .f32) (h : S2048.ShapeCasts S16x128) (p : Fin 16) (q : Fin 128) :
    shapeCast S16x128 v h (ix2 p q) = v (ix1 (⟨p.val * 128 + q.val, by omega⟩ : Fin 2048)) :=
  shapeCast_apply v h _ _ (by rw [Shape.rowMajor_val_one, Shape.rowMajor_val_two]; rfl)

/-- The sum over the 64 lanes of each row of a 2048 × 64 array, read at row `r`. -/
theorem rowsum_apply (v : FVec Ideal S2048x64 .f32) (h : S2048x64.Reduces [1] S2048) (hφ : FKind.Formats .f32)
    (hacc : (0x00000000#32 : BitVec 32) = FKind.add.neutral .f32 hφ) (r : Fin 2048) :
    multiReduction .add [1] S2048 v 0x00000000#32 h hφ hacc (ix1 r) = ∑ j : Fin 64, v (ix2 r j) := by
  refine (Ideal.multiReduction_add_single v _ h hφ hacc (ix1 r)).trans ?_
  show ∑ j : Fin 64, v (h.lift (ix1 r) j) = _
  exact Finset.sum_congr rfl fun j _ => congrArg v (funext fun a => Fin.ext (by
    match a with
    | ⟨0, _⟩ => rfl
    | ⟨1, _⟩ => rfl))

local notation "D" => dot_S2048x32_S32x64_S2048x64_1_0_0_1_n_n

theorem lhs_row (i : S2048x64.Idx) (k : (D).contr.Idx) : ((D).lhsIdx i k 0).val = (i 0).val := by
  unfold DotDims.lhsIdx
  rw [dif_neg (show ¬(0 : Fin S2048x32.rank) ∈ (D).lhsBatch by decide),
    dif_pos (show (0 : Fin S2048x32.rank) ∈ (D).lhsNonContracting by decide)]
  rfl
theorem lhs_col (i : S2048x64.Idx) (k : (D).contr.Idx) : ((D).lhsIdx i k 1).val = (k ⟨0, by decide⟩).val :=
  (D).lhsIdx_val_of_single rfl i k
theorem rhs_row (i : S2048x64.Idx) (k : (D).contr.Idx) : ((D).rhsIdx i k 0).val = (k ⟨0, by decide⟩).val :=
  (D).rhsIdx_val_of_single rfl i k
theorem rhs_col (i : S2048x64.Idx) (k : (D).contr.Idx) : ((D).rhsIdx i k 1).val = (i 1).val := by
  unfold DotDims.rhsIdx
  rw [dif_neg (show ¬(1 : Fin S32x64.rank) ∈ (D).rhsBatch by decide),
    dif_pos (show (1 : Fin S32x64.rank) ∈ (D).rhsNonContracting by decide)]
  rfl

/-- The 2048 × 32 by 32 × 64 product into the zero accumulator, read at `(r, j)`: the sum over the 32
    contracted columns. -/
theorem halfprod_apply (A : FVec Ideal S2048x32 .f32) (B : FVec Ideal S32x64 .f32) (r : Fin 2048) (j : Fin 64) :
    matmul (D) none A B (constant S2048x64 .f32 0x00000000#32) (ix2 r j) = ∑ c : Fin 32, A (ix2 r c) * B (ix2 c j) := by
  simp only [matmul]
  rw [Ideal.matmul_constant_zero_apply, ← Equiv.sum_comp (contrEquiv1 (D) 32 rfl rfl).symm]
  refine Finset.sum_congr rfl fun c _ => ?_
  have hc := contrEquiv1_symm_val (D) 32 rfl rfl c
  have el : (D).lhsIdx (ix2 r j) ((contrEquiv1 (D) 32 rfl rfl).symm c) = ix2 r c := funext fun a => Fin.ext (by
    match a with
    | ⟨0, _⟩ => exact lhs_row _ _
    | ⟨1, _⟩ => exact (lhs_col _ _).trans hc)
  have er : (D).rhsIdx (ix2 r j) ((contrEquiv1 (D) 32 rfl rfl).symm c) = ix2 c j := funext fun a => Fin.ext (by
    match a with
    | ⟨0, _⟩ => exact (rhs_row _ _).trans hc
    | ⟨1, _⟩ => exact rhs_col _ _)
  rw [el, er]

/-- THE STORED TILE at `(p, q)`: the score of slab row `128·p + q`, from the loaded blocks. -/
theorem pay_apply (v0 : Vec Ideal S1x2048x32 .f32) (v2 : Vec Ideal S32x64 .f32) (v5 : Vec Ideal S1x2048x32 .f32)
    (v7 : Vec Ideal S32x64 .f32) (v11 : Vec Ideal S1x64 .f32) (v17 : Vec Ideal S1x64 .f32) (v22 : Vec Ideal S1x1 .f32)
    (p : Fin 16) (q : Fin 128) :
    k0_pay1 (F := Ideal) v0 v2 v5 v7 v11 v17 v22 (ix2 p q)
      = (∑ j : Fin 64,
          max ((∑ c : Fin 32, v0 (ix3 (0 : Fin 1) (⟨p.val * 128 + q.val, by omega⟩ : Fin 2048) c) * v2 (ix2 c j))
              + (∑ c : Fin 32, v5 (ix3 (0 : Fin 1) (⟨p.val * 128 + q.val, by omega⟩ : Fin 2048) c) * v7 (ix2 c j))
              + v11 (ix2 (0 : Fin 1) j))
            (Ideal.ofBits .f32 0x00000000#32)
          * v17 (ix2 (0 : Fin 1) j))
        + v22 (ix2 (0 : Fin 1) (0 : Fin 1)) := by
  unfold k0_pay1
  dsimp only
  refine (tile_apply _ _ p q).trans ?_
  refine congrArg₂ (· + ·) ?_ ?_
  · refine (rowsum_apply _ _ _ _ _).trans ?_
    refine Finset.sum_congr rfl fun j _ => ?_
    refine congrArg₂ (· * ·) ?_ ?_
    · refine congrArg₂ max ?_ rfl
      refine congrArg₂ (· + ·) (congrArg₂ (· + ·) ?_ ?_) ?_
      · refine (halfprod_apply _ _ _ j).trans ?_
        exact Finset.sum_congr rfl fun c _ => congrArg₂ (· * ·) (shapeCast_1ab_ab_apply v0 _ _ c)
          (congrFun (shapeCast_self v2 _) _)
      · refine (halfprod_apply _ _ _ j).trans ?_
        exact Finset.sum_congr rfl fun c _ => congrArg₂ (· * ·) (shapeCast_1ab_ab_apply v5 _ _ c)
          (congrFun (shapeCast_self v7 _) _)
      · refine (broadcastTo_1b_ab_apply _ _ _ j).trans ?_
        exact congrFun (shapeCast_self v11 _) _
    · refine (broadcastTo_1b_ab_apply _ _ _ j).trans ?_
      exact congrFun (shapeCast_self v17 _) _
  · exact congrArg v22 (funext fun a => Fin.ext (by
      match a with
      | ⟨0, _⟩ => rfl
      | ⟨1, _⟩ => rfl))

end Cert.Score.Ker

end
-- ==== Proof.Score.lean ====
/-
  The function both programs compute, stated once over the argument arrays.

  The model scores a pair of stacked embeddings row by row.  For row `r` of the batch, the two
  embeddings `X(0, r, ·)` and `X(1, r, ·)` (32 numbers each) are placed side by side to form a
  vector of 64 numbers, a dense layer with weights `W0` (64 × 64) and bias `b0` followed by a
  rectifier gives 64 hidden activations, and a second dense layer with weights `W1` (64 × 1) and
  bias `b1` gives the score:

      hidden r j = max (Σ_{c<32} X(0,r,c)·W0(c,j) + Σ_{c<32} X(1,r,c)·W0(32+c,j) + b0(j)) 0
      score  r   = Σ_{j<64} hidden r j · W1(j,0) + b1(0)

  The contraction over the 64 joined columns is written here already split into its two halves
  of 32, one per embedding.  A sum over `Fin 64` splits into the sums over its lower and its upper
  32 indices in any commutative monoid (`sum_halves`), so nothing about finiteness of the entries
  is used: on the extended reals addition is still commutative and associative.
-/
import Idealize.ShloMosaic.PureOps.Ideal
import Idealize.ShloMosaic.Lib.ValueIdx

noncomputable section

open scoped BigOperators

namespace Cert.Score

open Idealize.ShloMosaic Idealize.ShloMosaic.ValueIdx

/-- Column `c` of the first embedding's half of the joined 64 columns. -/
abbrev lo (c : Fin 32) : Fin 64 := ⟨c.val, by omega⟩
/-- Column `c` of the second embedding's half: 32 further along. -/
abbrev hi (c : Fin 32) : Fin 64 := ⟨32 + c.val, by omega⟩

/-- A sum over 64 indices is the sum over the lower 32 plus the sum over the upper 32. -/
theorem sum_halves {M : Type*} [AddCommMonoid M] (f : Fin 64 → M) :
    ∑ k : Fin 64, f k = (∑ c : Fin 32, f (lo c)) + ∑ c : Fin 32, f (hi c) := by
  have h := Fin.sum_univ_add (a := 32) (b := 32) (M := M) f
  refine h.trans ?_
  congr 1

/-- The hidden activation `j` of batch row `r`. -/
def hidden (X : (⟨3, ![2, 16384, 32]⟩ : Shape).Idx → EReal) (W0 : (⟨2, ![64, 64]⟩ : Shape).Idx → EReal)
    (b0 : (⟨1, ![64]⟩ : Shape).Idx → EReal) (r : Fin 16384) (j : Fin 64) : EReal :=
  max ((∑ c : Fin 32, X (ix3 (0 : Fin 2) r c) * W0 (ix2 (lo c) j))
      + (∑ c : Fin 32, X (ix3 (1 : Fin 2) r c) * W0 (ix2 (hi c) j)) + b0 (ix1 j))
    (Ideal.ofBits .f32 0x00000000#32)

/-- The score of batch row `r`. -/
def score (X : (⟨3, ![2, 16384, 32]⟩ : Shape).Idx → EReal) (W0 : (⟨2, ![64, 64]⟩ : Shape).Idx → EReal)
    (b0 : (⟨1, ![64]⟩ : Shape).Idx → EReal) (W1 : (⟨2, ![64, 1]⟩ : Shape).Idx → EReal)
    (b1 : (⟨1, ![1]⟩ : Shape).Idx → EReal) (r : Fin 16384) : EReal :=
  (∑ j : Fin 64, hidden X W0 b0 r j * W1 (ix2 j (0 : Fin 1))) + b1 (ix1 (0 : Fin 1))

end Cert.Score

end
-- ==== Proof.Blocks.lean ====
/-
  What one grid point writes back, as a function of the arrays the region finds.

  Grid point `t` (of 8) is given rows `2048·t … 2048·t + 2047` of both embeddings, the whole of
  each small operand, and writes rows `16·t … 16·t + 15` of the 128 × 128 output.  Entry `(p, q)`
  of the tile it stores is the score of slab row `128·p + q`, that is of batch row
  `2048·t + 128·p + q = 128·(16·t + p) + q`: the output, read in row-major order, lists the
  scores of the batch rows in order.
-/
import proofs.«152916_g12249246728547_cont_main3_525_6_alg».proof.Proof.Gen.KernelIdeal.Frame
import proofs.«152916_g12249246728547_cont_main3_525_6_alg».proof.Proof.Payload
import proofs.«152916_g12249246728547_cont_main3_525_6_alg».proof.Proof.Score

set_option maxRecDepth 16384

noncomputable section

open scoped BigOperators

namespace Cert.Score.Ker

open Cert.KernelIdeal Cert.KernelIdeal.Gen
open Idealize.ShloMosaic Idealize.ShloMosaic.TcCoe Idealize.ShloMosaic.ValueIdx Idealize.SL.Sem
open Idealize.ShloMosaic.Pipeline (Dat)
open Cert.Score

theorem zero2 : (![0, 0] : Fin 2 → Nat) = fun _ => 0 := funext fun a => by fin_cases a <;> rfl

/-- The slab's first slice read at `(0, r, c)` is the slab at `(0, r, c)`. -/
theorem slab_fst (x0 : Vec Ideal S2x2048x32 .f32) (r : Fin 2048) (c : Fin 32) :
    View.ld x0 r0_0 (ix3 (0 : Fin 1) r c) = x0 (ix3 (0 : Fin 2) r c) :=
  congrArg x0 (funext fun a => Fin.ext (by
    match a with
    | ⟨0, _⟩ => rfl
    | ⟨1, _⟩ => show 0 + 1 * r.val = r.val; omega
    | ⟨2, _⟩ => show 0 + 1 * c.val = c.val; omega))

/-- The slab's second slice read at `(0, r, c)` is the slab at `(1, r, c)`. -/
theorem slab_snd (x0 : Vec Ideal S2x2048x32 .f32) (r : Fin 2048) (c : Fin 32) :
    View.ld x0 r0_2 (ix3 (0 : Fin 1) r c) = x0 (ix3 (1 : Fin 2) r c) :=
  congrArg x0 (funext fun a => Fin.ext (by
    match a with
    | ⟨0, _⟩ => rfl
    | ⟨1, _⟩ => show 0 + 1 * r.val = r.val; omega
    | ⟨2, _⟩ => show 0 + 1 * c.val = c.val; omega))

/-- The output buffer after the body, at `(p, q)`, from the buffers' contents. -/
theorem out_apply (x0 : Vec Ideal S2x2048x32 .f32) (x1 x2 : Vec Ideal S32x64 .f32) (x3 x4 : Vec Ideal S1x64 .f32)
    (x5 : Vec Ideal S1x1 .f32) (p : Fin 16) (q : Fin 128) :
    out0_6 (F := Ideal) x0 x1 x2 x3 x4 x5 (ix2 p q)
      = (∑ j : Fin 64,
          max ((∑ c : Fin 32, x0 (ix3 (0 : Fin 2) (⟨p.val * 128 + q.val, by omega⟩ : Fin 2048) c) * x1 (ix2 c j))
              + (∑ c : Fin 32, x0 (ix3 (1 : Fin 2) (⟨p.val * 128 + q.val, by omega⟩ : Fin 2048) c) * x2 (ix2 c j))
              + x3 (ix2 (0 : Fin 1) j))
            (Ideal.ofBits .f32 0x00000000#32)
          * x4 (ix2 (0 : Fin 1) j))
        + x5 (ix2 (0 : Fin 1) (0 : Fin 1)) := by
  unfold out0_6
  rw [View.canon_unit_zero zero2]
  refine (pay_apply _ _ _ _ _ _ _ p q).trans ?_
  refine congrArg₂ (· + ·) (Finset.sum_congr rfl fun j _ => congrArg₂ (· * ·) (congrArg₂ max ?_ rfl) ?_) ?_
  · refine congrArg₂ (· + ·) (congrArg₂ (· + ·) ?_ ?_) ?_
    · exact Finset.sum_congr rfl fun c _ => congrArg₂ (· * ·) (slab_fst x0 _ c)
        (congrFun (View.ld_unit_zero (S := S32x64) zero2 _ x1) _)
    · exact Finset.sum_congr rfl fun c _ => congrArg₂ (· * ·) (slab_snd x0 _ c)
        (congrFun (View.ld_unit_zero (S := S32x64) zero2 _ x2) _)
    · exact congrFun (View.ld_unit_zero (S := S1x64) zero2 _ x3) _
  · exact congrFun (View.ld_unit_zero (S := S1x64) zero2 _ x4) _
  · exact congrFun (View.ld_unit_zero (S := S1x1) zero2 _ x5) _

/-- ONE ENTRY OF ONE POINT'S TILE: if the buffers hold rows `2048·T …` of the embeddings and the
    small operands laid out as the body expects, the entry `y` of the output buffer is the score
    of batch row `2048·T + 128·y₀ + y₁`. -/
theorem point_eq (X : (⟨3, ![2, 16384, 32]⟩ : Shape).Idx → EReal) (W0 : (⟨2, ![64, 64]⟩ : Shape).Idx → EReal)
    (b0 : (⟨1, ![64]⟩ : Shape).Idx → EReal) (W1 : (⟨2, ![64, 1]⟩ : Shape).Idx → EReal)
    (b1 : (⟨1, ![1]⟩ : Shape).Idx → EReal)
    (x0 : Vec Ideal S2x2048x32 .f32) (x1 x2 : Vec Ideal S32x64 .f32) (x3 x4 : Vec Ideal S1x64 .f32)
    (x5 : Vec Ideal S1x1 .f32) (T : Nat) (hT : T < 8)
    (h0 : ∀ (e : Fin 2) (r : Fin 2048) (c : Fin 32),
      x0 (ix3 e r c) = X (ix3 e (⟨T * 2048 + r.val, by omega⟩ : Fin 16384) c))
    (h1 : ∀ (c : Fin 32) (j : Fin 64), x1 (ix2 c j) = W0 (ix2 (lo c) j))
    (h2 : ∀ (c : Fin 32) (j : Fin 64), x2 (ix2 c j) = W0 (ix2 (hi c) j))
    (h3 : ∀ j : Fin 64, x3 (ix2 (0 : Fin 1) j) = b0 (ix1 j))
    (h4 : ∀ j : Fin 64, x4 (ix2 (0 : Fin 1) j) = W1 (ix2 j (0 : Fin 1)))
    (h5 : x5 (ix2 (0 : Fin 1) (0 : Fin 1)) = b1 (ix1 (0 : Fin 1)))
    (y : S16x128.Idx) (R : Fin 16384) (hR : R.val = T * 2048 + ((y 0).val * 128 + (y 1).val)) :
    out0_6 (F := Ideal) x0 x1 x2 x3 x4 x5 y = score X W0 b0 W1 b1 R := by
  obtain ⟨p, q, rfl⟩ : ∃ (p : Fin 16) (q : Fin 128), y = ix2 p q := ⟨y 0, y 1, eq_ix2 y⟩
  have hRow : (⟨T * 2048 + (p.val * 128 + q.val), by omega⟩ : Fin 16384) = R := Fin.ext hR.symm
  rw [out_apply]
  unfold score hidden
  simp only [h0, h1, h2, h3, h4, h5, hRow]

/-- The printed index maps over the grid: the embeddings' window and the output's move with the
    point along their row axis, every other window stays on its one block. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

end Cert.Score.Ker

end
-- ==== Proof.KernelValue.lean ====
/-
  The kernel program's result, as a function of its arguments.

  Before the region the host cuts `W0` into its upper and lower 32 rows and lays `b0`, `W1` and
  `b1` out as rows; the region's eight grid points each write sixteen rows of a 128 × 128 array,
  and these blocks tile it, so the array ends holding, at `(a, b)`, the score of batch row
  `128·a + b`; after the region the host reads that array in row-major order as one column of
  16384 entries, so entry `r` of the result is the score of batch row `r`.
-/
import proofs.«152916_g12249246728547_cont_main3_525_6_alg».proof.Proof.Blocks
import Idealize.ShloMosaic.Lib.StableHlo.Run

set_option maxRecDepth 16384

noncomputable section

open scoped BigOperators

namespace Cert.Score.Ker

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)
open Cert.Score

variable (m : (ℓ : Loc nD τ sig) → Buf (Elt Ideal) ℓ) (ρ : Dev nD → PrngReg)

/-! ## The arrays the region finds -/

theorem found_W0_top (c : Dev nD) : (V m c main_v0 : S32x64.Idx → EReal)
    = extractStridedSlice S32x64 ![0, 0] (m ((c.tc : Thread nD τ).loc main_arg1)) slices_S64x64_S32x64_0_0 := by
  show StableHlo.after hostOps0 (fun b => m (c, b)) (Proc.devRef .tc main_v0) = _
  after_results <;> rfl

theorem found_W0_bot (c : Dev nD) : (V m c main_v1 : S32x64.Idx → EReal)
    = extractStridedSlice S32x64 ![32, 0] (m ((c.tc : Thread nD τ).loc main_arg1)) slices_S64x64_S32x64_32_0 := by
  show StableHlo.after hostOps0 (fun b => m (c, b)) (Proc.devRef .tc main_v1) = _
  after_results <;> rfl

theorem found_b0 (c : Dev nD) : (V m c main_v2 : S1x64.Idx → EReal)
    = shapeCast S1x64 (m ((c.tc : Thread nD τ).loc main_arg2)) shapeCasts_S64_S1x64 := by
  show StableHlo.after hostOps0 (fun b => m (c, b)) (Proc.devRef .tc main_v2) = _
  after_results <;> rfl

theorem found_W1 (c : Dev nD) : (V m c main_v3 : S1x64.Idx → EReal)
    = shapeCast S1x64 (m ((c.tc : Thread nD τ).loc main_arg3)) shapeCasts_S64x1_S1x64 := by
  show StableHlo.after hostOps0 (fun b => m (c, b)) (Proc.devRef .tc main_v3) = _
  after_results <;> rfl

theorem found_b1 (c : Dev nD) : (V m c main_v4 : S1x1.Idx → EReal)
    = shapeCast S1x1 (m ((c.tc : Thread nD τ).loc main_arg4)) shapeCasts_S1_S1x1 := by
  show StableHlo.after hostOps0 (fun b => m (c, b)) (Proc.devRef .tc main_v4) = _
  after_results <;> rfl

/-! ## Each window's block at a point, read off the arguments -/

/-- The embeddings' block at point `t`: rows `2048·t …` of both. -/
theorem blk_X (c : Dev nD) (t : Fin cfg0.N) (e : Fin 2) (r : Fin 2048) (k : Fin 32) :
    iblk m c 0 t (ix3 e r k) = m ((c.tc : Thread nD τ).loc main_arg0)
      (ix3 e (⟨t.val * 2048 + r.val, by have := lt_of_lt_of_eq t.isLt N_0; omega⟩ : Fin 16384) k) := by
  obtain ⟨e0, e1, e2, -⟩ := idx_facts t
  show V m c main_arg0 (((cfg0.win 0).blk t).view.emb (ix3 e r k)) = _
  rw [V_main_arg0]
  refine congrArg _ (funext fun a => Fin.ext ?_)
  match a with
  | ⟨0, _⟩ => show win0_0.index t (0 : Fin 3) * 2 + 1 * e.val = e.val; omega
  | ⟨1, _⟩ => show win0_0.index t (1 : Fin 3) * 2048 + 1 * r.val = t.val * 2048 + r.val; omega
  | ⟨2, _⟩ => show win0_0.index t (2 : Fin 3) * 32 + 1 * k.val = k.val; omega

/-- The upper half of `W0`, whole at every point. -/
theorem blk_W0_top (c : Dev nD) (t : Fin cfg0.N) (k : Fin 32) (j : Fin 64) :
    iblk m c 1 t (ix2 k j) = m ((c.tc : Thread nD τ).loc main_arg1) (ix2 (lo k) j) := by
  obtain ⟨-, -, -, e0, e1, -⟩ := idx_facts t
  show V m c main_v0 (((cfg0.win 1).blk t).view.emb (ix2 k j)) = _
  rw [found_W0_top]
  refine extractStridedSlice_apply _ _ _ _ _ fun a => ?_
  match a with
  | ⟨0, _⟩ => show k.val = 0 + (win0_1.index t (0 : Fin 2) * 32 + 1 * k.val); omega
  | ⟨1, _⟩ => show j.val = 0 + (win0_1.index t (1 : Fin 2) * 64 + 1 * j.val); omega

/-- The lower half of `W0`, whole at every point: rows 32 further down. -/
theorem blk_W0_bot (c : Dev nD) (t : Fin cfg0.N) (k : Fin 32) (j : Fin 64) :
    iblk m c 2 t (ix2 k j) = m ((c.tc : Thread nD τ).loc main_arg1) (ix2 (hi k) j) := by
  obtain ⟨-, -, -, -, -, e0, e1, -⟩ := idx_facts t
  show V m c main_v1 (((cfg0.win 2).blk t).view.emb (ix2 k j)) = _
  rw [found_W0_bot]
  refine extractStridedSlice_apply _ _ _ _ _ fun a => ?_
  match a with
  | ⟨0, _⟩ => show 32 + k.val = 32 + (win0_2.index t (0 : Fin 2) * 32 + 1 * k.val); omega
  | ⟨1, _⟩ => show j.val = 0 + (win0_2.index t (1 : Fin 2) * 64 + 1 * j.val); omega

/-- The bias row `b0`. -/
theorem blk_b0 (c : Dev nD) (t : Fin cfg0.N) (j : Fin 64) :
    iblk m c 3 t (ix2 (0 : Fin 1) j) = m ((c.tc : Thread nD τ).loc main_arg2) (ix1 j) := by
  obtain ⟨-, -, -, -, -, -, -, e0, e1, -⟩ := idx_facts t
  show V m c main_v2 (((cfg0.win 3).blk t).view.emb (ix2 (0 : Fin 1) j)) = _
  rw [found_b0]
  refine shapeCast_apply (s := S64) (t := S1x64) _ shapeCasts_S64_S1x64 _ (ix1 j) ?_
  rw [Shape.rowMajor_val_one, Shape.rowMajor_val_two]
  show j.val = (win0_3.index t (0 : Fin 2) * 1 + 1 * 0) * 64 + (win0_3.index t (1 : Fin 2) * 64 + 1 * j.val)
  omega

/-- The weights `W1` as a row. -/
theorem blk_W1 (c : Dev nD) (t : Fin cfg0.N) (j : Fin 64) :
    iblk m c 4 t (ix2 (0 : Fin 1) j) = m ((c.tc : Thread nD τ).loc main_arg3) (ix2 j (0 : Fin 1)) := by
  obtain ⟨-, -, -, -, -, -, -, -, -, e0, e1, -⟩ := idx_facts t
  show V m c main_v3 (((cfg0.win 4).blk t).view.emb (ix2 (0 : Fin 1) j)) = _
  rw [found_W1]
  refine shapeCast_apply (s := S64x1) (t := S1x64) _ shapeCasts_S64x1_S1x64 _ (ix2 j (0 : Fin 1)) ?_
  rw [Shape.rowMajor_val_two, Shape.rowMajor_val_two]
  show j.val * 1 + 0 = (win0_4.index t (0 : Fin 2) * 1 + 1 * 0) * 64 + (win0_4.index t (1 : Fin 2) * 64 + 1 * j.val)
  omega

/-- The scalar `b1`. -/
theorem blk_b1 (c : Dev nD) (t : Fin cfg0.N) :
    iblk m c 5 t (ix2 (0 : Fin 1) (0 : Fin 1)) = m ((c.tc : Thread nD τ).loc main_arg4) (ix1 (0 : Fin 1)) := by
  obtain ⟨-, -, -, -, -, -, -, -, -, -, -, e0, e1, -⟩ := idx_facts t
  show V m c main_v4 (((cfg0.win 5).blk t).view.emb (ix2 (0 : Fin 1) (0 : Fin 1))) = _
  rw [found_b1]
  refine shapeCast_apply (s := S1) (t := S1x1) _ shapeCasts_S1_S1x1 _ (ix1 (0 : Fin 1)) ?_
  rw [Shape.rowMajor_val_one, Shape.rowMajor_val_two]
  show 0 = (win0_5.index t (0 : Fin 2) * 1 + 1 * 0) * 1 + (win0_5.index t (1 : Fin 2) * 1 + 1 * 0)
  omega

/-! ## The region's output array -/

/-- The 128 × 128 array of scores: entry `(a, b)` is the score of batch row `128·a + b`. -/
def tiles (X : (⟨3, ![2, 16384, 32]⟩ : Shape).Idx → EReal) (W0 : (⟨2, ![64, 64]⟩ : Shape).Idx → EReal)
    (b0 : (⟨1, ![64]⟩ : Shape).Idx → EReal) (W1 : (⟨2, ![64, 1]⟩ : Shape).Idx → EReal)
    (b1 : (⟨1, ![1]⟩ : Shape).Idx → EReal) : S128x128.Idx → EReal :=
  fun i => score X W0 b0 W1 b1 ⟨(i 0).val * 128 + (i 1).val, by have := idx2_lt0 i; have := idx2_lt1 i; omega⟩

/-- WHAT POINT `t` WRITES BACK is block `t` of that array. -/
theorem flushed_eq (c : Dev nD) (t : Fin cfg0.N) :
    (dats m 0 c).flushed 6 t = ((cfg0.win 6).blk t).view.read (Elt Ideal)
      (tiles (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4))) := by
  show (cfg0.win 6).cut (grid0.coords t) ((dats m 0 c).after 6 t) = _
  rw [after0_6]
  have ht : t.val < 8 := lt_of_lt_of_eq t.isLt N_0
  obtain ⟨-, -, -, -, -, -, -, -, -, -, -, -, -, e0, e1⟩ := idx_facts t
  funext j
  have hj0 : (j 0).val < 16 := (j 0).isLt
  have hj1 : (j 1).val < 128 := (j 1).isLt
  refine point_eq _ _ _ _ _ (iblk m c 0 t) (iblk m c 1 t) (iblk m c 2 t) (iblk m c 3 t) (iblk m c 4 t) (iblk m c 5 t)
    t.val ht (blk_X m c t) (blk_W0_top m c t) (blk_W0_bot m c t) (blk_b0 m c t) (blk_W1 m c t) (blk_b1 m c t) j _ ?_
  show (win0_6.index t (0 : Fin 2) * 16 + 1 * (j 0).val) * 128 + (win0_6.index t (1 : Fin 2) * 128 + 1 * (j 1).val)
    = t.val * 2048 + ((j 0).val * 128 + (j 1).val)
  omega

/-- An index of the output array is in point `t`'s block iff each coordinate is in the block's range on its axis. -/
theorem mem_blk (t : Fin cfg0.N) (i : S128x128.Idx) :
    i ∈ ((cfg0.win 6).blk t).view.set ↔ ∀ a : Fin 2, win0_6.index t a * S16x128.size a ≤ (i a).val
      ∧ (i a).val < win0_6.index t a * S16x128.size a + S16x128.size a := by
  show i ∈ ((View.whole main_v5).slice (win0_6.rect t)).set ↔ _
  rw [View.set_slice_whole, Rect.mem_set_unit]
  exact Iff.rfl

/-- THE BLOCKS TILE THE OUTPUT: row `a` of the array lies in the block of point `a / 16`. -/
theorem cover (i : S128x128.Idx) :
    ∃ t : Fin cfg0.N, (cfg0.win 6).flush t = true ∧ i ∈ ((cfg0.win 6).blk t).view.set := by
  have hi0 : (i 0).val < 128 := (i 0).isLt
  have hi1 : (i 1).val < 128 := (i 1).isLt
  obtain ⟨t, ht⟩ : ∃ t : Fin cfg0.N, t.val = (i 0).val / 16 :=
    ⟨⟨(i 0).val / 16, lt_of_lt_of_eq (by omega : (i 0).val / 16 < 8) N_0.symm⟩, rfl⟩
  obtain ⟨-, -, -, -, -, -, -, -, -, -, -, -, -, e0, e1⟩ := idx_facts t
  refine ⟨t, flush0_6 t, ?_⟩
  rw [mem_blk]
  intro a
  match a with
  | ⟨0, _⟩ =>
    show win0_6.index t (0 : Fin 2) * 16 ≤ (i 0).val ∧ (i 0).val < win0_6.index t (0 : Fin 2) * 16 + 16
    omega
  | ⟨1, _⟩ =>
    show win0_6.index t (1 : Fin 2) * 128 ≤ (i 1).val ∧ (i 1).val < win0_6.index t (1 : Fin 2) * 128 + 128
    omega

/-- THE OUTPUT ARRAY AFTER THE REGION holds the scores in row-major order. -/
theorem final (c : Dev nD) : (dats m 0 c).arrAt 6 cfg0.N
    = tiles (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) :=
  (dats m 0 c).arrAt_eq_of_cover 6 _ (fun t _ => flushed_eq m c t) cover

/-! ## The host's reading of the output as one column -/

/-- A 128 × 128 array read as a column of 16384: entry `r` is the array at `(r / 128, r % 128)`. -/
theorem column_apply (A : S128x128.Idx → EReal) (h : S128x128.ShapeCasts S16384x1) (r : Fin 16384) (z : Fin 1) :
    shapeCast S16384x1 A h (ix2 r z)
      = A (ix2 (⟨r.val / 128, by omega⟩ : Fin 128) (⟨r.val % 128, by omega⟩ : Fin 128)) :=
  shapeCast_apply A h _ _ (by
    rw [Shape.rowMajor_val_two, Shape.rowMajor_val_two]
    show r.val / 128 * 128 + r.val % 128 = r.val * 1 + z.val
    omega)

/-- THE KERNEL PROGRAM'S RESULT: entry `r` of its one column is the score of batch row `r`. -/
theorem result_eq (c : Dev nD) :
    Pipeline.afterTail₀ cfgs (dats m) 0 (V0 m) [hostOps1] c main_v6
      = fun i : S16384x1.Idx => score (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (i 0) := by
  have e := (Pipeline.withArrays_arr spec0 launch0.win.arr_inj c (V0 m c)
    (fun w => (dats m 0 c).arrAt w cfg0.N) 6).trans (final m c)
  unfold Pipeline.afterTail₀
  show StableHlo.after hostOps1 _ (Proc.devRef .tc main_v6) = _
  after_results
  funext i
  obtain ⟨r, z, rfl⟩ : ∃ (r : Fin 16384) (z : Fin 1), i = ix2 r z := ⟨i 0, i 1, eq_ix2 i⟩
  refine (column_apply _ _ r z).trans ?_
  refine (congrFun e _).trans ?_
  unfold tiles
  exact congrArg _ (Fin.ext (by show r.val / 128 * 128 + r.val % 128 = r.val; omega))

/-! ## The run, read -/

/-- Every weakly fair execution of the kernel program terminates with its result at the scores of the batch rows
    and its arguments unchanged. -/
theorem run : θ_run defs (onTc (τ := τ) (main (F := Ideal))) ⟨m, fun _ => 0, ρ⟩ fun r => ∀ c : Dev nD,
      r.2.mem ((c.tc : Thread nD τ).loc main_v6)
        = (fun i : S16384x1.Idx => score (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Score.Ker

end
-- ==== Proof.RefScore.lean ====
/-
  The reference program computes `Score.score`.

  Its host operations, read one at a time at an index: the two slices and reshapes pick the two
  embeddings out of the stacked input, the concatenation puts them side by side (columns 0–31 are
  the first embedding's, columns 32–63 the second's), the first matrix product contracts those 64
  columns with the rows of `W0`, the bias row is broadcast down the batch, the rectifier is the
  maximum with the constant zero, the second matrix product contracts the 64 hidden activations
  with the one column of `W1`, and the last bias is broadcast to every row.  The only step that
  is not a reading is splitting the 64-term contraction into its two halves (`Score.sum_halves`).
-/
import proofs.«152916_g12249246728547_cont_main3_525_6_alg».proof.Proof.Gen.ReferenceIdeal.Read
import proofs.«152916_g12249246728547_cont_main3_525_6_alg».proof.Proof.Score

noncomputable section

open scoped BigOperators

namespace Cert.Score.Ref

open Cert.ReferenceIdeal Cert.ReferenceIdeal.Gen Cert.ReferenceIdeal.Read
open Idealize.ShloMosaic Idealize.ShloMosaic.ValueIdx Cert.Score

variable (X : (⟨S2x16384x32, .f32⟩ : BufTy).Contents (Elt Ideal))

/-- The joined array at a column of its lower half is the first embedding there. -/
theorem joined_lo (r : Fin 16384) (c : Fin 32) :
    val_main_v4 (F := Ideal) X (ix2 r (lo c)) = X (ix3 (0 : Fin 2) r c) := by
  have hr := r.isLt
  have hc := c.isLt
  unfold val_main_v4
  refine (concatenate_pair_apply_left (t := S16384x64) (s₁ := S16384x32) (s₂ := S16384x32) (1 : Fin 2)
    (val_main_v1 (F := Ideal) X) (val_main_v3 (F := Ideal) X) concatenates_S16384x32_S16384x32_S16384x64_d1
    (ix2 r (lo c)) rfl (ix2 r c) (fun b => by match b with | ⟨0, _⟩ => rfl | ⟨1, _⟩ => rfl)).trans ?_
  rw [val_main_v1_apply, val_main_v0_apply]
  refine congrArg X (funext fun a => Fin.ext ?_)
  match a with
  | ⟨0, _⟩ => rfl
  | ⟨1, _⟩ => show (r.val * 32 + c.val) / 32 % 16384 = r.val; omega
  | ⟨2, _⟩ => show (r.val * 32 + c.val) % 32 = c.val; omega

/-- The joined array at a column of its upper half is the second embedding, 32 columns back. -/
theorem joined_hi (r : Fin 16384) (c : Fin 32) :
    val_main_v4 (F := Ideal) X (ix2 r (hi c)) = X (ix3 (1 : Fin 2) r c) := by
  have hr := r.isLt
  have hc := c.isLt
  unfold val_main_v4
  refine (concatenate_pair_apply_right (t := S16384x64) (s₁ := S16384x32) (s₂ := S16384x32) (1 : Fin 2)
    (val_main_v1 (F := Ideal) X) (val_main_v3 (F := Ideal) X) concatenates_S16384x32_S16384x32_S16384x64_d1
    (ix2 r (hi c)) rfl rfl (ix2 r c)
    (fun b hb => by
      match b with
      | ⟨0, _⟩ => rfl
      | ⟨1, _⟩ => exact absurd rfl hb)
    (by show c.val + 32 = 32 + c.val; omega)).trans ?_
  rw [val_main_v3_apply, val_main_v2_apply]
  refine congrArg X (funext fun a => Fin.ext ?_)
  match a with
  | ⟨0, _⟩ => rfl
  | ⟨1, _⟩ => show (r.val * 32 + c.val) / 32 % 16384 = r.val; omega
  | ⟨2, _⟩ => show (r.val * 32 + c.val) % 32 = c.val; omega

variable (W0 : (⟨S64x64, .f32⟩ : BufTy).Contents (Elt Ideal)) (b0 : (⟨S64, .f32⟩ : BufTy).Contents (Elt Ideal))

/-- The rectified first layer at row `r`, activation `j`. -/
theorem hidden_eq (r : Fin 16384) (j : Fin 64) :
    val_main_v9 (F := Ideal) X W0 b0 (ix2 r j) = hidden X W0 b0 r j := by
  rw [val_main_v9_apply, val_main_v8_apply, val_main_v5_apply, val_main_v7_apply, val_main_v6_apply,
    val_main_call0_v0_apply, val_main_call0_cst_apply, sum_halves]
  have el : ∀ k : Fin 64, lidx_main_v5 (ix2 r j) k = ix2 r k := fun k =>
    funext fun a => Fin.ext (by match a with | ⟨0, _⟩ => rfl | ⟨1, _⟩ => rfl)
  have er : ∀ k : Fin 64, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  simp only [el, er, eb, joined_lo, joined_hi]
  rfl

variable (W1 : (⟨S64x1, .f32⟩ : BufTy).Contents (Elt Ideal)) (b1 : (⟨S1, .f32⟩ : BufTy).Contents (Elt Ideal))

/-- THE REFERENCE'S RESULT at row `r` (its one column) is the score of row `r`. -/
theorem result_eq (i : S16384x1.Idx) :
    val_main_v13 (F := Ideal) X W0 b0 W1 b1 i = score X W0 b0 W1 b1 (i 0) := by
  obtain ⟨r, z, rfl⟩ : ∃ (r : Fin 16384) (z : Fin 1), i = ix2 r z := ⟨i 0, i 1, eq_ix2 i⟩
  obtain rfl : z = 0 := Subsingleton.elim _ _
  rw [val_main_v13_apply, val_main_v10_apply, val_main_v12_apply, val_main_v11_apply]
  have el : ∀ k : Fin 64, lidx_main_v10 (ix2 r (0 : Fin 1)) k = ix2 r k := fun k =>
    funext fun a => Fin.ext (by match a with | ⟨0, _⟩ => rfl | ⟨1, _⟩ => rfl)
  have er : ∀ k : Fin 64, ridx_main_v10 (ix2 r (0 : Fin 1)) k = ix2 k (0 : Fin 1) := fun k =>
    funext fun a => Fin.ext (by match a with | ⟨0, _⟩ => rfl | ⟨1, _⟩ => rfl)
  have eb : idx_main_v11 (idx_main_v12 (ix2 r (0 : Fin 1))) = ix1 (0 : Fin 1) :=
    funext fun a => Fin.ext (by match a with | ⟨0, _⟩ => rfl)
  simp only [el, er, eb, hidden_eq]
  rfl

end Cert.Score.Ref

end
-- ==== Proof.lean ====
/-
  The kernel and its reference compute the same scores.

  Both programs take a stack of two embedding arrays `X` (2 × 16384 × 32), weights `W0` (64 × 64)
  and `W1` (64 × 1) and biases `b0` (64) and `b1` (1), and return one score per batch row:

      score r = Σ_{j<64} max (Σ_{c<32} X(0,r,c)·W0(c,j) + Σ_{c<32} X(1,r,c)·W0(32+c,j) + b0(j)) 0 · W1(j,0) + b1(0).

  The reference joins the two embeddings of a row into 64 columns and contracts them with `W0` in
  one product; the kernel multiplies each embedding by its own half of `W0` and adds the two
  products.  A sum over 64 indices is the sum over its two halves in any commutative monoid, so on
  the extended reals the two agree at every input — no entry needs to be finite, and the
  precondition is never opened.  The second layer is a matrix product with the one column of `W1`
  in the reference and a product with `W1` as a row followed by a sum along each row in the kernel:
  the same 64-term sum.  The kernel works through the batch in eight slabs of 2048 rows and writes
  each slab's scores as a 16 × 128 tile of a 128 × 128 array, which the host then reads in row-major
  order as one column: entry `r` of that column is the score of row `r` (`Score.Ker.run`), and so
  is entry `r` of the reference's result (`Score.Ref.result_eq`).

  The idealization rewrote nothing, so the kernel's idealized program is its own text read over the
  extended reals.  The three frames are the generated ones (the reference's is its run with the
  result forgotten).
-/
import proofs.«152916_g12249246728547_cont_main3_525_6_alg».proof.Defs
import proofs.«152916_g12249246728547_cont_main3_525_6_alg».proof.Proof.Gen.Kernel
import proofs.«152916_g12249246728547_cont_main3_525_6_alg».proof.Proof.Gen.Kernel.Frame
import proofs.«152916_g12249246728547_cont_main3_525_6_alg».proof.Proof.Gen.KernelIdeal
import proofs.«152916_g12249246728547_cont_main3_525_6_alg».proof.Proof.Gen.KernelIdeal.Frame
import proofs.«152916_g12249246728547_cont_main3_525_6_alg».proof.Proof.Gen.ReferenceIdeal
import proofs.«152916_g12249246728547_cont_main3_525_6_alg».proof.Proof.Gen.ReferenceIdeal.Run
import proofs.«152916_g12249246728547_cont_main3_525_6_alg».proof.Proof.Gen.ReferenceIdeal.Read
import proofs.«152916_g12249246728547_cont_main3_525_6_alg».proof.Proof.Gen.Pre_finite_inputs
import proofs.«152916_g12249246728547_cont_main3_525_6_alg».proof.Proof.KernelValue
import proofs.«152916_g12249246728547_cont_main3_525_6_alg».proof.Proof.RefScore
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with entry `r` of their result at the score of
    batch row `r`. -/
theorem algebraic : Cert.algebraic_KernelIdeal_ReferenceIdeal := by
  intro m ρ m' ρ' _ hagree
  refine ⟨_, Cert.Score.Ker.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq]
  funext i
  rw [Cert.Score.Ref.result_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
